-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1 : Shape := ⟨2, ![16384, 1]⟩
abbrev S16384x128 : Shape := ⟨2, ![16384, 128]⟩
abbrev S_ : Shape := ⟨0, ![]⟩

class Facts : Prop where
  bcast_S_S16384x1 : S_.BroadcastsInDim S16384x1 (![] : Fin 0 → Fin S16384x1.rank)
  reducesTo_S16384x1_S_d0_1 : S16384x1.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn_part1 {F : FTy → Type} [FloatOps F] (main_arg4 : FVec F S16384x128 .f32) (main_v13 : IVec S_ 1) (main_v16 : IVec S16384x128 1) : IVec S_ 1 :=
  let main_c_5 : IVec S_ 1 := constantI S_ 1 1#1
  let main_v17 : IVec S_ 1 := (fun x v => Host.reduce IntOp.andi x v reducesTo_S16384x128_S_d0_1 h_S_) main_v16 main_c_5
  let main_v18 : IVec S_ 1 := andi main_v13 main_v17
  let main_v19 : FVec F S16384x128 .f32 := Host.absf main_arg4
  let main_cst_6 : FVec F S_ .f32 := constant S_ .f32 0x7F800000#32
  let main_v20 : FVec F S16384x128 .f32 := broadcastInDim S16384x128 ![] bcast_S_S16384x128 main_cst_6
  let main_v21 : IVec S16384x128 1 := cmpf .olt main_v19 main_v20
  let main_c_7 : IVec S_ 1 := constantI S_ 1 1#1
  let main_v22 : IVec S_ 1 := (fun x v => Host.reduce IntOp.andi x v reducesTo_S16384x128_S_d0_1 h_S_) main_v21 main_c_7
  let main_v23 : IVec S_ 1 := andi main_v18 main_v22
  main_v23

def fn {F : FTy → Type} [FloatOps F] (main_arg0 : FVec F S16384x1 .f32) (main_arg1 : FVec F S16384x1 .f32) (main_arg2 : FVec F S16384x1 .f32) (main_arg3 : FVec F S16384x128 .f32) (main_arg4 : FVec F S16384x128 .f32) : IVec S_ 1 :=
  let main_v0 : FVec F S16384x1 .f32 := Host.absf main_arg0
  let main_cst : FVec F S_ .f32 := constant S_ .f32 0x7F800000#32
  let main_v1 : FVec F S16384x1 .f32 := broadcastInDim S16384x1 ![] bcast_S_S16384x1 main_cst
  let main_v2 : IVec S16384x1 1 := cmpf .olt main_v0 main_v1
  let main_c : IVec S_ 1 := constantI S_ 1 1#1
  let main_v3 : IVec S_ 1 := (fun x v => Host.reduce IntOp.andi x v reducesTo_S16384x1_S_d0_1 h_S_) main_v2 main_c
  let main_v4 : FVec F S16384x1 .f32 := Host.absf main_arg1
  let main_cst_0 : FVec F S_ .f32 := constant S_ .f32 0x7F800000#32
  let main_v5 : FVec F S16384x1 .f32 := broadcastInDim S16384x1 ![] bcast_S_S16384x1 main_cst_0
  let main_v6 : IVec S16384x1 1 := cmpf .olt main_v4 main_v5
  let main_c_1 : IVec S_ 1 := constantI S_ 1 1#1
  let main_v7 : IVec S_ 1 := (fun x v => Host.reduce IntOp.andi x v reducesTo_S16384x1_S_d0_1 h_S_) main_v6 main_c_1
  let main_v8 : IVec S_ 1 := andi main_v3 main_v7
  let main_v9 : FVec F S16384x1 .f32 := Host.absf main_arg2
  let main_cst_2 : FVec F S_ .f32 := constant S_ .f32 0x7F800000#32
  let main_v10 : FVec F S16384x1 .f32 := broadcastInDim S16384x1 ![] bcast_S_S16384x1 main_cst_2
  let main_v11 : IVec S16384x1 1 := cmpf .olt main_v9 main_v10
  let main_c_3 : IVec S_ 1 := constantI S_ 1 1#1
  let main_v12 : IVec S_ 1 := (fun x v => Host.reduce IntOp.andi x v reducesTo_S16384x1_S_d0_1 h_S_) main_v11 main_c_3
  let main_v13 : IVec S_ 1 := andi main_v8 main_v12
  let main_v14 : FVec F S16384x128 .f32 := Host.absf main_arg3
  let main_cst_4 : FVec F S_ .f32 := constant S_ .f32 0x7F800000#32
  let main_v15 : FVec F S16384x128 .f32 := broadcastInDim S16384x128 ![] bcast_S_S16384x128 main_cst_4
  let main_v16 : IVec S16384x128 1 := cmpf .olt main_v14 main_v15
  fn_part1 (F := F) main_arg4 main_v13 main_v16
-- ==== Kernel.lean ====
abbrev S16384x1 : Shape := ⟨2, ![16384, 1]⟩
abbrev S16384x128 : Shape := ⟨2, ![16384, 128]⟩
abbrev S128x128 : Shape := ⟨2, ![128, 128]⟩
abbrev S128x128x128 : Shape := ⟨3, ![128, 128, 128]⟩
abbrev S64x128x128 : Shape := ⟨3, ![64, 128, 128]⟩
abbrev S1x128x128 : Shape := ⟨3, ![1, 128, 128]⟩
abbrev S1 : Shape := ⟨1, ![1]⟩
abbrev S1x1x1 : Shape := ⟨3, ![1, 1, 1]⟩
abbrev S64x128 : Shape := ⟨2, ![64, 128]⟩
abbrev S64x128x1 : Shape := ⟨3, ![64, 128, 1]⟩

abbrev nBuf : Space → Nat
  | .hbm => 12
  | .vmem => 11
  | .smem => 0
  | _ => 0

abbrev bufTy : (tb : Table) → Fin (tcTables nBuf tb) → BufTy
  | .hbm, ⟨0, _⟩ => ⟨S16384x1, .f32⟩
  | .hbm, ⟨1, _⟩ => ⟨S16384x1, .f32⟩
  | .hbm, ⟨2, _⟩ => ⟨S16384x1, .f32⟩
  | .hbm, ⟨3, _⟩ => ⟨S16384x128, .f32⟩
  | .hbm, ⟨4, _⟩ => ⟨S16384x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128x128, .f32⟩
  | .hbm, ⟨9, _⟩ => ⟨S128x128x128, .f32⟩
  | .hbm, ⟨10, _⟩ => ⟨S128x128x128, .f32⟩
  | .hbm, ⟨11, _⟩ => ⟨S16384x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S64x128x128, .f32⟩
  | .local _ .vmem, ⟨4, _⟩ => ⟨S64x128x128, .f32⟩
  | .local _ .vmem, ⟨5, _⟩ => ⟨S64x128x128, .f32⟩
  | .local _ .vmem, ⟨6, _⟩ => ⟨S64x128x128, .f32⟩
  | .local _ .vmem, ⟨7, _⟩ => ⟨S64x128x128, .f32⟩
  | .local _ .vmem, ⟨8, _⟩ => ⟨S64x128x128, .f32⟩
  | .local _ .vmem, ⟨9, _⟩ => ⟨S128x128, .f32⟩
  | .local _ .vmem, ⟨10, _⟩ => ⟨S128x128, .f32⟩
  | _, _ => ⟨S16384x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let c64_i32 : BitVec 32 := 64#32
  let v3 : BitVec 32 := Scalar.muli arg0 c64_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16384x1_S128x128 : S16384x1.ShapeCasts S128x128
  shapeCasts_S16384x128_S128x128x128 : S16384x128.ShapeCasts S128x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S1x128x128 : S128x128.ShapeCasts S1x128x128
  reduces_S1x128x128_S1 : S1x128x128.Reduces [1, 2] S1
  shapeCasts_S1_S1x1x1 : S1.ShapeCasts S1x1x1
  inpos_S1x1x1_p0_0_0 : ∀ a, (![0, 0, 0] : Fin 3 → Nat) a < S1x1x1.size a
  h_S64x128 : 0 < S64x128.numel
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  shapeCasts_S64x128_S64x128x1 : S64x128.ShapeCasts S64x128x1
  broadcasts_S64x128x1_S64x128x128 : S64x128x1.Broadcasts S64x128x128
  shapeCasts_S128x128x128_S16384x128 : S128x128x128.ShapeCasts S16384x128
  hrank0 : 0 < grid0.rank
  k0_off1_inb : ∀ i : grid0.Coords, ∀ a, (k0_off1 i) a + S64x128.size a ≤ S128x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S128x128.size a
  hwx0_0 : ∀ i : grid0.Coords, EltTy.bits .f32 = 32 ∨ (Rect.block (s := S128x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128x128.size a ≤ S128x128x128.size a
  hwx0_3 : ∀ i : grid0.Coords, EltTy.bits .f32 = 32 ∨ (Rect.block (s := S128x128x128) S64x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x128x128.size a ≤ S128x128x128.size a
  hwx0_4 : ∀ i : grid0.Coords, EltTy.bits .f32 = 32 ∨ (Rect.block (s := S128x128x128) S64x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x128x128.size a ≤ S128x128x128.size a
  hwx0_5 : ∀ i : grid0.Coords, EltTy.bits .f32 = 32 ∨ (Rect.block (s := S128x128x128) S64x128x128.size (cc0_transform_5 i) (hinb0_5 i)).WholeWords (EltTy.packing .f32)

variable [Facts₀]

abbrev win0_0 : Pipeline.Window sig grid0 :=
  Pipeline.Window.ofSpec (Memref.whole main_v0) S128x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S64x128x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S64x128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1 : Shape := ⟨2, ![16384, 1]⟩
abbrev S16384x128 : Shape := ⟨2, ![16384, 128]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16384x1, .f32⟩
  | .hbm, ⟨1, _⟩ => ⟨S16384x1, .f32⟩
  | .hbm, ⟨2, _⟩ => ⟨S16384x1, .f32⟩
  | .hbm, ⟨3, _⟩ => ⟨S16384x128, .f32⟩
  | .hbm, ⟨4, _⟩ => ⟨S16384x128, .f32⟩
  | .hbm, ⟨5, _⟩ => ⟨S_, .f32⟩
  | .hbm, ⟨6, _⟩ => ⟨S16384x128, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x128, .f32⟩
  | .hbm, ⟨24, _⟩ => ⟨S16384x128, .f32⟩
  | .hbm, ⟨25, _⟩ => ⟨S16384x128, .f32⟩
  | _, _ => ⟨S16384x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]

class Facts₀ : Prop where
  bcast_S_S16384x128 : S_.BroadcastsInDim S16384x128 (![] : Fin 0 → Fin S16384x128.rank)
  bcast_S_S16384x1 : S_.BroadcastsInDim S16384x1 (![] : Fin 0 → Fin S16384x1.rank)
  reducesTo_S16384x1_S_d0_1 : S16384x1.ReducesTo [0, 1] S_
  h_S_ : 0 < S_.numel
  bcast_S16384x1_S16384x128_0_1 : S16384x1.BroadcastsInDim S16384x128 (![0, 1] : Fin 2 → Fin S16384x128.rank)

variable [Facts₀]

class Facts : Prop extends Facts₀ where

variable [Facts]
-- ==== Proof.LibMaxAll.lean ====
/-
  The largest entry of a whole array, over the extended reals.

  Reducing EVERY axis of an array by the running maximum — inside a kernel (a `multi_reduction <maximumf>` whose
  result shape has only unit axes) or on the host (a `reduce` applying `maximum` whose result shape has only unit
  axes, rank zero included) — gives, at the result's one entry, the running maximum of all the array's entries from the
  start value. That number does not depend on how the entries are indexed: re-indexing along any bijection, a row-major
  re-reading of the array in another shape in particular, leaves it unchanged.
-/
import Idealize.ShloMosaic.PureOps.Ideal
import Idealize.ShloMosaic.PureOps.Ideal.Laws
import Idealize.ShloMosaic.PureOps.Reduce

noncomputable section

namespace Cert.Lib.MaxAll

open Idealize.ShloMosaic

/-- The running maximum of a finite family of extended reals from the start value `b`. -/
def topFrom {ι : Type} [Fintype ι] (b : EReal) (x : ι → EReal) : EReal := (Finset.univ : Finset ι).fold max b x

/-- Re-indexing a family along a bijection does not change its running maximum. -/
theorem topFrom_equiv {ι κ : Type} [Fintype ι] [Fintype κ] (e : ι ≃ κ) (b : EReal) (f : κ → EReal) :
    topFrom b (fun i => f (e i)) = topFrom b f := by
  unfold topFrom
  rw [← Finset.map_univ_equiv e, Finset.fold_map]
  rfl

/-- A row-major re-reading of an array in another shape has the same running maximum. -/
theorem topFrom_shapeCast {s t : Shape} (b : EReal) (x : s.Idx → EReal) (h : s.ShapeCasts t) :
    topFrom b (shapeCast t x h) = topFrom b x :=
  topFrom_equiv (Shape.reshapeEquiv h) b x

/-- A kernel's maximum-reduction into a shape with only unit axes is, at any entry of the result, the running maximum
    of all the operand's entries from the accumulator's value. -/
theorem multiReduction_maximumf_all {s t : Shape} {axes : List (Fin s.rank)} {φ : FTy} (src : FVec Ideal s φ)
    (acc : BitVec φ.bits) (h : s.Reduces axes t) (ht : ∀ b, t.size b = 1) (hφ : FKind.Formats φ)
    (hacc : acc = FKind.maximumf.neutral φ hφ) (j : t.Idx) :
    multiReduction (F := Ideal) .maximumf axes t src acc h hφ hacc j = topFrom (Ideal.ofBits φ acc) src := by
  refine (multiReduction_maximumf_eq_fold (F := Ideal) src acc h hφ hacc j).trans ?_
  rw [Finset.filter_true_of_mem (fun i _ => funext fun b => Fin.ext (by
    have h1 := (h.drop i b).isLt
    have h2 := (j b).isLt
    have h3 := ht b
    omega))]
  rfl

/-- The host's maximum-reduction into a shape with only unit axes (rank zero included) is, at any entry of the result,
    the running maximum of all the operand's entries from the initial value. -/
theorem hostReduce_maximumf_all {s t u : Shape} {axes : List (Fin s.rank)} {φ : FTy} (x : s.Idx → EReal)
    (init : u.Idx → EReal) (h : s.ReducesTo axes t) (ht : ∀ b, t.size b = 1) (hu : 0 < u.numel) (j : t.Idx) :
    Host.reduce (FloatOps.maximumf (F := Ideal) (φ := φ)) x init h hu j = topFrom (init (Shape.Idx.first hu)) x := by
  refine (Host.reduce_eq_fold (FloatOps.maximumf (F := Ideal) (φ := φ)) x init h hu j).trans ?_
  rw [Finset.filter_true_of_mem (fun i _ => funext fun b => Fin.ext (by
    have h1 := (h.drop i b).isLt
    have h2 := (j b).isLt
    have h3 := ht b
    omega))]
  rfl

end Cert.Lib.MaxAll

end
-- ==== Proof.Spec.lean ====
/-
  The common specification of the two programs, over the extended reals.

  Inputs: three columns u, d1, d2 of 16384 entries and two matrices v1, v2 of 16384 rows and 128 columns. With
  M1 the largest entry of u and M2 the largest entry of u - d2 (both started from the value of the word for minus
  infinity, the same word in both programs, never evaluated), the result at row r and column l is

      v2(r, l) · min(d2(r), M1) + v1(r, l) · min(d1(r), M2).

  The largest entry of a finite family does not depend on how the family is indexed: re-indexing along a bijection
  leaves it unchanged. That is the only law the comparison of the two programs needs beyond `x - 0 = x` and
  `0 + x = x`, which hold for every extended real; no entry is ever required to be finite.
-/
import Idealize.ShloMosaic.PureOps.Ideal
import Idealize.ShloMosaic.PureOps.Ideal.Laws
import Idealize.ShloMosaic.Lib.ValueIdx
import proofs.«157263_g25632364823053_cont_8to1_311_27_alg».proof.Proof.LibMaxAll

noncomputable section

namespace Cert.Spec

open Idealize.ShloMosaic Idealize.ShloMosaic.ValueIdx

/-- The value both programs start a running maximum from: the word of minus infinity, read as an extended real. -/
abbrev start : EReal := Ideal.ofBits .f32 0xFF800000#32

/-- The largest entry of a finite family of extended reals, the running maximum started from `start`. -/
def top {ι : Type} [Fintype ι] (x : ι → EReal) : EReal := Cert.Lib.MaxAll.topFrom start x

/-- Re-indexing a family along a bijection does not change its largest entry. -/
theorem top_equiv {ι κ : Type} [Fintype ι] [Fintype κ] (e : ι ≃ κ) (f : κ → EReal) :
    top (fun i => f (e i)) = top f :=
  Cert.Lib.MaxAll.topFrom_equiv e start f

/-- A column of 16384 entries and a matrix of 16384 rows of 128 entries. -/
abbrev SC : Shape := ⟨2, ![16384, 1]⟩
abbrev SM : Shape := ⟨2, ![16384, 128]⟩

/-- The column entry that belongs to a matrix entry's row. -/
abbrev rowOf (i : SM.Idx) : SC.Idx := ix2 (⟨(i 0).val, idx2_lt0 i⟩ : Fin 16384) (⟨0, Nat.one_pos⟩ : Fin 1)

/-- The result both programs compute, entry by entry. -/
def G (u d1 d2 : SC.Idx → EReal) (v1 v2 : SM.Idx → EReal) : SM.Idx → EReal := fun i =>
  v2 i * min (d2 (rowOf i)) (top u) + v1 i * min (d1 (rowOf i)) (top fun k => u k - d2 k)

end Cert.Spec

end
-- ==== Proof.Pieces.lean ====
/-
  What the kernel body leaves behind, case by case, as plain values.

  The body runs at two grid points. At the first it computes, from the whole [128,128] views of u, d1 and d2, the two
  weight tables (d2 capped by the largest u, d1 capped by the largest u - d2) and stores them in the two scratch
  buffers; at every point it then reads 64 rows of each table and combines them with the point's blocks of v2 and v1.
  At the second point the scratch buffers still hold what the first point stored. The lemmas below say exactly this
  about the pieces the body's run found: each scratch buffer ends at its table's payload, and the output block ends at
  the combining payload of the 64 rows, read either from the freshly stored tables (first point) or from the carried
  scratch contents (second point).
-/
import proofs.«157263_g25632364823053_cont_8to1_311_27_alg».proof.Proof.Gen.KernelIdeal.Frame
import Idealize.ShloMosaic.Lib.Pipeline.Value
import Idealize.ShloMosaic.Lib.Tactic

set_option maxRecDepth 16384
noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 64 rows of a [128,128] table that the body reads at grid point `i`: rows `64·i … 64·i + 63`. -/
def rowsAt (i : grid0.Coords) (X : Vec F S128x128 .f32) : Vec F S64x128 .f32 :=
  View.ld X (Rect.unit (s := S128x128) (k0_off1 i) S64x128.size (k0_off1_inb i))

/-- One store through the whole [128,128] buffer, read back, is the stored value. -/
theorem read_back {sig' : RefSig} {κ : Kind} {sp : Space} (v : View sig' κ sp S128x128 .f32) (f : v.ty.Contents (Elt F))
    (w : S128x128.Idx → Elt F .f32) :
    v.read (Elt F) (v.writes (Elt F) f [(⟨Rect.unit ![0, 0] S128x128.size inb_S128x128_S128x128_0_0, w⟩ : View.Piece (Elt F) S128x128 .f32)]) = w := by
  rw [View.read_writes_eq_canon _ _ _ (fun y => ⟨_, List.mem_singleton_self _,
    View.mem_set_unit_zero hz2 inb_S128x128_S128x128_0_0 y⟩), View.canon_unit_zero hz2]

/-- First point: the second scratch buffer ends at the table "d2 capped by the largest u". -/
theorem scratch1_first (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S64x128x128 .f32) (harg4 : arg4.IsWhole) (arg5 : Memref sig .tc .vmem S64x128x128 .f32) (harg5 : arg5.IsWhole) (arg6 : Memref sig .tc .vmem S64x128x128 .f32) (harg6 : arg6.IsWhole) (arg7 : Memref sig .tc .vmem S128x128 .f32) (harg7 : arg7.IsWhole) (arg8 : Memref sig .tc .vmem S128x128 .f32) (harg8 : arg8.IsWhole) (hc0 : cond0_0 i)
    (x0 x1 x2 : Vec F S128x128 .f32) (x3 x4 : Vec F S64x128x128 .f32) :
    sout0_A_1 c i arg1 harg1 arg2 harg2 arg3 harg3 arg4 harg4 arg5 harg5 arg6 harg6 arg7 harg7 arg8 harg8 hc0 x0 x1 x2 x3 x4 = k0_pay3 x0 x2 := by
  unfold sout0_A_1
  rw [View.read_writes_eq_canon _ _ _ (scover0_A_1 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz2]
  simp only [View.readAt_eq_ld, harg1.read_unread, harg3.read_unread, View.ld_unit_zero (S := S128x128) hz2]

/-- First point: the first scratch buffer ends at the table "d1 capped by the largest u - d2". -/
theorem scratch0_first (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S64x128x128 .f32) (harg4 : arg4.IsWhole) (arg5 : Memref sig .tc .vmem S64x128x128 .f32) (harg5 : arg5.IsWhole) (arg6 : Memref sig .tc .vmem S64x128x128 .f32) (harg6 : arg6.IsWhole) (arg7 : Memref sig .tc .vmem S128x128 .f32) (harg7 : arg7.IsWhole) (arg8 : Memref sig .tc .vmem S128x128 .f32) (harg8 : arg8.IsWhole) (hc0 : cond0_0 i)
    (x0 x1 x2 : Vec F S128x128 .f32) (x3 x4 : Vec F S64x128x128 .f32) :
    sout0_A_0 c i arg1 harg1 arg2 harg2 arg3 harg3 arg4 harg4 arg5 harg5 arg6 harg6 arg7 harg7 arg8 harg8 hc0 x0 x1 x2 x3 x4 = k0_pay4 x0 x2 x1 := by
  unfold sout0_A_0
  rw [View.read_writes_eq_canon _ _ _ (scover0_A_0 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz2]
  simp only [View.readAt_eq_ld, harg1.read_unread, harg2.read_unread, harg3.read_unread, View.ld_unit_zero (S := S128x128) hz2]

/-- First point: the output block is the combining payload of the point's rows of the two tables just stored. -/
theorem out_first (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S64x128x128 .f32) (harg4 : arg4.IsWhole) (arg5 : Memref sig .tc .vmem S64x128x128 .f32) (harg5 : arg5.IsWhole) (arg6 : Memref sig .tc .vmem S64x128x128 .f32) (harg6 : arg6.IsWhole) (arg7 : Memref sig .tc .vmem S128x128 .f32) (harg7 : arg7.IsWhole) (arg8 : Memref sig .tc .vmem S128x128 .f32) (harg8 : arg8.IsWhole) (hc0 : cond0_0 i)
    (x0 x1 x2 : Vec F S128x128 .f32) (x3 x4 : Vec F S64x128x128 .f32) :
    out0_A_5 c i arg1 harg1 arg2 harg2 arg3 harg3 arg4 harg4 arg5 harg5 arg6 harg6 arg7 harg7 arg8 harg8 hc0 x0 x1 x2 x3 x4
      = k0_pay5 (rowsAt i (k0_pay3 x0 x2)) (rowsAt i (k0_pay4 x0 x2 x1)) x4 x3 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz3]
  simp only [View.readAt_eq_ld, harg1.read_unread, harg2.read_unread, harg3.read_unread, harg4.read_unread, harg5.read_unread]
  simp only [View.ld_unit_zero (S := S128x128) hz2, View.ld_unit_zero (S := S64x128x128) hz3]
  show k0_pay5 (rowsAt i (View.read (Elt F) arg8.view _)) (rowsAt i (View.read (Elt F) arg7.view _)) x4 x3 = _
  rw [read_back, read_back]

/-- Second point: the output block is the combining payload of the point's rows of the carried scratch contents. -/
theorem out_later (c : Dev nD) (i : grid0.Coords) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S64x128x128 .f32) (harg4 : arg4.IsWhole) (arg5 : Memref sig .tc .vmem S64x128x128 .f32) (harg5 : arg5.IsWhole) (arg6 : Memref sig .tc .vmem S64x128x128 .f32) (harg6 : arg6.IsWhole) (arg7 : Memref sig .tc .vmem S128x128 .f32) (harg7 : arg7.IsWhole) (arg8 : Memref sig .tc .vmem S128x128 .f32) (harg8 : arg8.IsWhole) (hc0 : ¬cond0_0 i)
    (x0 x1 x2 : Vec F S128x128 .f32) (x3 x4 : Vec F S64x128x128 .f32) (xs0 xs1 : Vec F S128x128 .f32) :
    out0_B_5 c i arg1 harg1 arg2 harg2 arg3 harg3 arg4 harg4 arg5 harg5 arg6 harg6 arg7 harg7 arg8 harg8 hc0 x0 x1 x2 x3 x4 xs0 xs1 = k0_pay5 (rowsAt i xs1) (rowsAt i xs0) x4 x3 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xs0 xs1)]
  unfold kernelRun0_B
  dsimp only
  sl_unfold_words
  rw [View.canon_unit_zero hz3]
  simp only [View.readAt_eq_ld, harg4.read_unread, harg5.read_unread, harg7.read_unread, harg8.read_unread,
    View.ld_unit_zero (S := S64x128x128) hz3]
  rfl

end Cert.KernelIdeal.Pieces

end
-- ==== Proof.LibGridOps.lean ====
/-
  Operations on a stack of grids — an array [a, b, c] read as `a` grids of `b` rows and `c` columns — each read at an
  entry, at exact arithmetic.

  A softmax down the columns or along the rows of every grid of the stack reduces one of the two trailing axes, puts
  the reduced axis back as a unit axis and repeats the result along it. Here are the pieces, for any extents: the sum
  and the running maximum over the middle axis and over the last axis; the casts [a, c] → [a, 1, c], [a, b] → [a, b, 1]
  and [a, 1] → [a, 1, 1] that restore a unit axis; the broadcasts of [a, 1, c], [a, b, 1] and [a, 1, 1] to [a, b, c];
  the sum of an [a, b, 1] stack over its middle axis; and the cast between [a, b·c] and [a, b, c], which puts grid
  entry (q, r) at column q·c + r.
-/
import Idealize.ShloMosaic.Lib.ValueIdx
import Idealize.ShloMosaic.Lib.Pipeline.Value
import Idealize.ShloMosaic.PureOps.Ideal.Laws

noncomputable section

namespace Cert.Lib.GridOps

open Idealize.ShloMosaic Idealize.ShloMosaic.TcCoe Idealize.SL.Sem Idealize.ShloMosaic.ValueIdx

variable {α : Type}

/-! ## Restoring a unit axis -/

/-- `[a, c] → [a, 1, c]`: entry (p, u, r) is the operand's (p, r). -/
theorem shapeCast_ac_a1c_apply {a c : ℕ} (x : (⟨2, ![a, c]⟩ : Shape).Idx → α) (h : (⟨2, ![a, c]⟩ : Shape).ShapeCasts ⟨3, ![a, 1, c]⟩)
    (p : Fin a) (u : Fin 1) (r : Fin c) : shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- `[a, b] → [a, b, 1]`: entry (p, q, u) is the operand's (p, q). -/
theorem shapeCast_ab_ab1_apply {a b : ℕ} (x : (⟨2, ![a, b]⟩ : Shape).Idx → α) (h : (⟨2, ![a, b]⟩ : Shape).ShapeCasts ⟨3, ![a, b, 1]⟩)
    (p : Fin a) (q : Fin b) (u : Fin 1) : shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a, 1] → [a, 1, 1]`: entry (p, u, u') is the operand's (p, 0). -/
theorem shapeCast_a1_a11_apply {a : ℕ} (x : (⟨2, ![a, 1]⟩ : Shape).Idx → α) (h : (⟨2, ![a, 1]⟩ : Shape).ShapeCasts ⟨3, ![a, 1, 1]⟩)
    (p : Fin a) (u u' : Fin 1) : shapeCast ⟨3, ![a, 1, 1]⟩ x h (ix3 p u u') = x (ix2 p (0 : Fin 1)) :=
  shapeCast_apply x h _ _ (by
    have hu : u.val = 0 := by omega
    have hu' : u'.val = 0 := by omega
    rw [Shape.rowMajor_val_three, Shape.rowMajor_val_two]
    show p.val * 1 + 0 = (p.val * 1 + u.val) * 1 + u'.val
    rw [hu, hu', Nat.mul_one, Nat.add_zero, Nat.mul_one, Nat.add_zero])

/-! ## Repeating along a restored axis -/

/-- `[a, 1, c] → [a, b, c]`: entry (p, q, r) is the operand's (p, 0, r). -/
theorem broadcastTo_a1c_abc_apply {a b c : ℕ} (v : (⟨3, ![a, 1, c]⟩ : Shape).Idx → α) (h : (⟨3, ![a, 1, c]⟩ : Shape).Broadcasts ⟨3, ![a, b, c]⟩)
    (p : Fin a) (q : Fin b) (r : Fin c) : broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- `[a, b, 1] → [a, b, c]`: entry (p, q, r) is the operand's (p, q, 0). -/
theorem broadcastTo_ab1_abc_apply {a b c : ℕ} (v : (⟨3, ![a, b, 1]⟩ : Shape).Idx → α) (h : (⟨3, ![a, b, 1]⟩ : Shape).Broadcasts ⟨3, ![a, b, c]⟩)
    (p : Fin a) (q : Fin b) (r : Fin c) : broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a, 1, 1] → [a, b, c]`: entry (p, q, r) is the operand's (p, 0, 0). -/
theorem broadcastTo_a11_abc_apply {a b c : ℕ} (v : (⟨3, ![a, 1, 1]⟩ : Shape).Idx → α) (h : (⟨3, ![a, 1, 1]⟩ : Shape).Broadcasts ⟨3, ![a, b, c]⟩)
    (p : Fin a) (q : Fin b) (r : Fin c) : broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-! ## Reductions over the middle axis and over the last axis -/

/-- The sum over the middle axis at (p, r): the sum over `q` of the entries (p, q, r). -/
theorem sum_mid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ) (p : Fin a) (r : Fin c) :
    multiReduction (F := Ideal) .add [1] ⟨2, ![a, c]⟩ src acc h hφ hacc (ix2 p r) = ∑ q : Fin b, src (ix3 p q r) := by
  refine (Ideal.multiReduction_add_single src acc h hφ hacc (ix2 p r)).trans ?_
  refine Finset.sum_congr rfl fun k _ => congrArg src ?_
  funext d; apply Fin.ext
  match d with
  | ⟨0, _⟩ => rfl
  | ⟨1, _⟩ => rfl
  | ⟨2, _⟩ => rfl

/-- The sum over the last axis at (p, q): the sum over `r` of the entries (p, q, r). -/
theorem sum_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ) (p : Fin a) (q : Fin b) :
    multiReduction (F := Ideal) .add [2] ⟨2, ![a, b]⟩ src acc h hφ hacc (ix2 p q) = ∑ r : Fin c, src (ix3 p q r) := by
  refine (Ideal.multiReduction_add_single src acc h hφ hacc (ix2 p q)).trans ?_
  refine Finset.sum_congr rfl fun k _ => congrArg src ?_
  funext d; apply Fin.ext
  match d with
  | ⟨0, _⟩ => rfl
  | ⟨1, _⟩ => rfl
  | ⟨2, _⟩ => rfl

/-- The running maximum over the middle axis at (p, r), started from the accumulator's value. -/
theorem max_mid_apply {a b c : ℕ} {φ : FTy} (src : FVec Ideal ⟨3, ![a, b, c]⟩ φ) (acc : BitVec φ.bits)
    (h : (⟨3, ![a, b, c]⟩ : Shape).Reduces [1] ⟨2, ![a, c]⟩) (hφ : FKind.Formats φ) (hacc : acc = FKind.maximumf.neutral φ hφ) (p : Fin a) (r : Fin c) :
    multiReduction (F := Ideal) .maximumf [1] ⟨2, ![a, c]⟩ src acc h hφ hacc (ix2 p r)
      = (Finset.univ : Finset (Fin b)).fold max (Ideal.ofBits φ acc) fun q => src (ix3 p q r) := by
  refine (Ideal.multiReduction_maximumf_single src acc h hφ hacc (ix2 p r)).trans ?_
  refine congrArg (fun f => (Finset.univ : Finset (Fin b)).fold max (Ideal.ofBits φ acc) f) (funext fun k => congrArg src ?_)
  funext d; apply Fin.ext
  match d with
  | ⟨0, _⟩ => rfl
  | ⟨1, _⟩ => rfl
  | ⟨2, _⟩ => rfl

/-- The running maximum over the last axis at (p, q), started from the accumulator's value. -/
theorem max_last_apply {a b c : ℕ} {φ : FTy} (src : FVec Ideal ⟨3, ![a, b, c]⟩ φ) (acc : BitVec φ.bits)
    (h : (⟨3, ![a, b, c]⟩ : Shape).Reduces [2] ⟨2, ![a, b]⟩) (hφ : FKind.Formats φ) (hacc : acc = FKind.maximumf.neutral φ hφ) (p : Fin a) (q : Fin b) :
    multiReduction (F := Ideal) .maximumf [2] ⟨2, ![a, b]⟩ src acc h hφ hacc (ix2 p q)
      = (Finset.univ : Finset (Fin c)).fold max (Ideal.ofBits φ acc) fun r => src (ix3 p q r) := by
  refine (Ideal.multiReduction_maximumf_single src acc h hφ hacc (ix2 p q)).trans ?_
  refine congrArg (fun f => (Finset.univ : Finset (Fin c)).fold max (Ideal.ofBits φ acc) f) (funext fun k => congrArg src ?_)
  funext d; apply Fin.ext
  match d with
  | ⟨0, _⟩ => rfl
  | ⟨1, _⟩ => rfl
  | ⟨2, _⟩ => rfl

/-- The sum of an `[a, b, 1]` stack over its middle axis, at (p, u): the sum over `q` of the entries (p, q, 0). -/
theorem sum_mid_unit_apply {a b : ℕ} {φ : FTy} (src : FVec Ideal ⟨3, ![a, b, 1]⟩ φ) (acc : BitVec φ.bits)
    (h : (⟨3, ![a, b, 1]⟩ : Shape).Reduces [1] ⟨2, ![a, 1]⟩) (hφ : FKind.Formats φ) (hacc : acc = FKind.add.neutral φ hφ) (p : Fin a) :
    multiReduction (F := Ideal) .add [1] ⟨2, ![a, 1]⟩ src acc h hφ hacc (ix2 p (0 : Fin 1)) = ∑ q : Fin b, src (ix3 p q (0 : Fin 1)) :=
  sum_mid_apply src acc h hφ hacc p 0

/-! ## Columns as a grid -/

/-- `[a, n] → [a, b, c]` with `n = b·c`: entry (p, q, r) is the operand's column `q·c + r` of row `p`. -/
theorem shapeCast_an_abc_apply {a n b c : ℕ} (x : (⟨2, ![a, n]⟩ : Shape).Idx → α) (h : (⟨2, ![a, n]⟩ : Shape).ShapeCasts ⟨3, ![a, b, c]⟩)
    (p : Fin a) (q : Fin b) (r : Fin c) (k : Fin n) (hk : k.val = q.val * c + r.val) (hn : n = b * c) :
    shapeCast ⟨3, ![a, b, c]⟩ x h (ix3 p q r) = x (ix2 p k) :=
  shapeCast_apply x h _ _ (by
    rw [Shape.rowMajor_val_three, Shape.rowMajor_val_two]
    show p.val * n + k.val = (p.val * b + q.val) * c + r.val
    rw [hk, hn, Nat.add_mul, Nat.mul_assoc, Nat.add_assoc])

/-- `[a, b, c] → [a, n]` with `n = b·c`: column `k = q·c + r` of row `p` is the operand's entry (p, q, r). -/
theorem shapeCast_abc_an_apply {a n b c : ℕ} (x : (⟨3, ![a, b, c]⟩ : Shape).Idx → α) (h : (⟨3, ![a, b, c]⟩ : Shape).ShapeCasts ⟨2, ![a, n]⟩)
    (p : Fin a) (q : Fin b) (r : Fin c) (k : Fin n) (hk : k.val = q.val * c + r.val) (hn : n = b * c) :
    shapeCast ⟨2, ![a, n]⟩ x h (ix2 p k) = x (ix3 p q r) :=
  shapeCast_apply x h _ _ (by
    rw [Shape.rowMajor_val_three, Shape.rowMajor_val_two]
    show (p.val * b + q.val) * c + r.val = p.val * n + k.val
    rw [hk, hn, Nat.add_mul, Nat.mul_assoc, Nat.add_assoc])

end Cert.Lib.GridOps

end
-- ==== Proof.Payload.lean ====
/-
  The body's arithmetic at an entry, over the extended reals.

  Reducing the whole [1,128,128] view of a [128,128] table by the running maximum and extracting the one entry of the
  result gives the table's largest entry. So the first stored table is, entry by entry, d2 capped by the largest u,
  the second d1 capped by the largest u - d2; the 64 rows read at grid point t are rows 64·t … 64·t + 63 of a table;
  and the combining step at (a, b, l) multiplies the block entries of v2 and v1 by the weights of row (a, b) and adds.
-/
import proofs.«157263_g25632364823053_cont_8to1_311_27_alg».proof.Proof.Gen.KernelIdeal.Frame
import proofs.«157263_g25632364823053_cont_8to1_311_27_alg».proof.Proof.Pieces
import proofs.«157263_g25632364823053_cont_8to1_311_27_alg».proof.Proof.Spec
import proofs.«157263_g25632364823053_cont_8to1_311_27_alg».proof.Proof.LibGridOps
import proofs.«157263_g25632364823053_cont_8to1_311_27_alg».proof.Proof.LibMaxAll
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Idealize.ShloMosaic.ValueIdx

/-- Reducing every entry of a [128,128] table by the running maximum and extracting the one result is the largest
    entry of the table. -/
theorem max_all (x : FVec Ideal S128x128 .f32) :
    extractAt ![0, 0, 0] (shapeCast S1x1x1 (multiReduction (F := Ideal) .maximumf [1, 2] S1
      (shapeCast S1x128x128 x shapeCasts_S128x128_S1x128x128) 0xFF800000#32 reduces_S1x128x128_S1 (.inl rfl) rfl)
      shapeCasts_S1_S1x1x1) inpos_S1x1x1_p0_0_0 = Cert.Spec.top x := by
  unfold extractAt
  refine (Cert.Lib.MaxAll.multiReduction_maximumf_all (shapeCast S1x128x128 x shapeCasts_S128x128_S1x128x128)
    0xFF800000#32 reduces_S1x128x128_S1 (fun b => by match b with | ⟨0, _⟩ => rfl) (.inl rfl) rfl
    (Shape.reshapeEquiv shapeCasts_S1_S1x1x1 _)).trans ?_
  exact Cert.Lib.MaxAll.topFrom_shapeCast Cert.Spec.start x shapeCasts_S128x128_S1x128x128

/-- The first stored table, entry by entry: d2 capped by the largest u. -/
theorem capped_by_top (x0 x2 : FVec Ideal S128x128 .f32) (a b : Fin 128) :
    k0_pay3 (F := Ideal) x0 x2 (ix2 a b) = min (x2 (ix2 a b)) (Cert.Spec.top x0) := by
  unfold k0_pay3 k0_pay1 k0_pay2
  simp only [shapeCast_self]
  show min (x2 (ix2 a b)) _ = _
  rw [max_all]
  rfl

/-- The second stored table, entry by entry: d1 capped by the largest u - d2. -/
theorem capped_by_top_diff (x0 x2 x1 : FVec Ideal S128x128 .f32) (a b : Fin 128) :
    k0_pay4 (F := Ideal) x0 x2 x1 (ix2 a b) = min (x1 (ix2 a b)) (Cert.Spec.top fun k => x0 k - x2 k) := by
  unfold k0_pay4 k0_pay1 k0_pay2
  simp only [shapeCast_self]
  show min (x1 (ix2 a b)) _ = _
  rw [max_all]
  rfl

/-- The one grid coordinate of point `t` is `t` itself. -/
theorem coords_val : ∀ t : Fin cfg0.N, (grid0.coords t 0).val = t.val :=
  (by decide +kernel : ∀ t : Fin grid0.N, (grid0.coords t 0).val = t.val)

/-- The 64 rows read at grid point `t` are rows `64·t … 64·t + 63` of the table. -/
theorem rowsAt_apply (t : Fin cfg0.N) (X : FVec Ideal S128x128 .f32) (a : Fin 64) (b r : Fin 128)
    (hr : r.val = 64 * t.val + a.val) :
    Cert.KernelIdeal.Pieces.rowsAt (F := Ideal) (grid0.coords t) X (ix2 a b) = X (ix2 r b) := by
  unfold Cert.KernelIdeal.Pieces.rowsAt
  show X _ = X _
  refine congrArg X (funext fun ax => Fin.ext ?_)
  match ax with
  | ⟨0, _⟩ =>
    show (k0_off1 (grid0.coords t)) 0 + 1 * a.val = r.val
    rw [k0_off1_eq]
    have ht : (grid0.coords t 0).val = t.val := coords_val t
    show 64 * (grid0.coords t 0).val + 1 * a.val = r.val
    omega
  | ⟨1, _⟩ =>
    show (k0_off1 (grid0.coords t)) 1 + 1 * b.val = b.val
    rw [k0_off1_eq]
    show 0 + 1 * b.val = b.val
    omega

/-- The combining step at (a, b, l): the block entries of v2 and v1 times the weights of row (a, b), added. -/
theorem combine_apply (w2 w1 : FVec Ideal S64x128 .f32) (y2 y1 : FVec Ideal S64x128x128 .f32) (a : Fin 64) (b l : Fin 128) :
    k0_pay5 (F := Ideal) w2 w1 y2 y1 (ix3 a b l)
      = y2 (ix3 a b l) * w2 (ix2 a b) + y1 (ix3 a b l) * w1 (ix2 a b) := by
  have e2 : broadcastTo S64x128x128 (shapeCast S64x128x1 w2 shapeCasts_S64x128_S64x128x1) broadcasts_S64x128x1_S64x128x128 (ix3 a b l)
      = w2 (ix2 a b) :=
    (Cert.Lib.GridOps.broadcastTo_ab1_abc_apply _ _ a b l).trans (Cert.Lib.GridOps.shapeCast_ab_ab1_apply w2 _ a b 0)
  have e1 : broadcastTo S64x128x128 (shapeCast S64x128x1 w1 shapeCasts_S64x128_S64x128x1) broadcasts_S64x128x1_S64x128x128 (ix3 a b l)
      = w1 (ix2 a b) :=
    (Cert.Lib.GridOps.broadcastTo_ab1_abc_apply _ _ a b l).trans (Cert.Lib.GridOps.shapeCast_ab_ab1_apply w1 _ a b 0)
  unfold k0_pay5
  simp only [shapeCast_self]
  exact congrArg₂ (· + ·) (congrArg (y2 (ix3 a b l) * ·) e2) (congrArg (y1 (ix3 a b l) * ·) e1)

end Cert.KernelIdeal.Payload

end
-- ==== Proof.KernelBlocks.lean ====
/-
  The kernel's region, block by block, over the extended reals.

  The region sees u, d1, d2 as [128,128] tables and v1, v2 as [128,128,128] stacks. Its first three windows always
  show the whole tables; the windows of v1 and v2 show 64 consecutive layers, layers 64·t … 64·t + 63 at grid point t.
  The first point stores the two weight tables in scratch, where the second point finds them; so at either point the
  output block is the combining step of the point's 64 rows of the two tables with the point's layers of v2 and v1.
-/
import proofs.«157263_g25632364823053_cont_8to1_311_27_alg».proof.Proof.Gen.KernelIdeal.Frame
import proofs.«157263_g25632364823053_cont_8to1_311_27_alg».proof.Proof.Pieces
import proofs.«157263_g25632364823053_cont_8to1_311_27_alg».proof.Proof.Spec
import Idealize.ShloMosaic.Lib.Pipeline.Value
import Idealize.ShloMosaic.Lib.ValueIdx

set_option maxRecDepth 16384
noncomputable section

open Idealize.ShloMosaic Idealize.ShloMosaic.TcCoe Idealize.SL.Sem

open Idealize.ShloMosaic.Pipeline (Dat)

namespace Cert.KernelIdeal.Region

open Cert.KernelIdeal Cert.KernelIdeal.Gen Idealize.ShloMosaic.ValueIdx

variable (m : (ℓ : Loc nD τ sig) → Buf (Elt Ideal) ℓ) (ρ : Dev nD → PrngReg)

/-- Where each window's block sits at grid point `t`: the three tables always at the origin, the stacks' blocks at
    layer block `t`. Decided over the two points. -/
theorem block_index : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The window of u shows the whole table at every point. -/
theorem iblk0_apply (c : Dev nD) (t : Fin cfg0.N) (y : S128x128.Idx) :
    (iblk m c 0 t : Vec Ideal S128x128 .f32) y = V m c main_v0 y := by
  unfold iblk
  rw [View.read_apply]
  show V m c main_v0 _ = V m c main_v0 _
  refine congrArg (V m c main_v0) (funext fun ax => Fin.ext ?_)
  obtain ⟨e00, e01, e10, e11, e20, e21, -⟩ := block_index t
  match ax with
  | ⟨0, _⟩ => show win0_0.index t (0 : Fin 2) * 128 + 1 * (y 0).val = (y 0).val; omega
  | ⟨1, _⟩ => show win0_0.index t (1 : Fin 2) * 128 + 1 * (y 1).val = (y 1).val; omega

/-- The window of d1 shows the whole table at every point. -/
theorem iblk1_apply (c : Dev nD) (t : Fin cfg0.N) (y : S128x128.Idx) :
    (iblk m c 1 t : Vec Ideal S128x128 .f32) y = V m c main_v1 y := by
  unfold iblk
  rw [View.read_apply]
  show V m c main_v1 _ = V m c main_v1 _
  refine congrArg (V m c main_v1) (funext fun ax => Fin.ext ?_)
  obtain ⟨e00, e01, e10, e11, e20, e21, -⟩ := block_index t
  match ax with
  | ⟨0, _⟩ => show win0_1.index t (0 : Fin 2) * 128 + 1 * (y 0).val = (y 0).val; omega
  | ⟨1, _⟩ => show win0_1.index t (1 : Fin 2) * 128 + 1 * (y 1).val = (y 1).val; omega

/-- The window of d2 shows the whole table at every point. -/
theorem iblk2_apply (c : Dev nD) (t : Fin cfg0.N) (y : S128x128.Idx) :
    (iblk m c 2 t : Vec Ideal S128x128 .f32) y = V m c main_v2 y := by
  unfold iblk
  rw [View.read_apply]
  show V m c main_v2 _ = V m c main_v2 _
  refine congrArg (V m c main_v2) (funext fun ax => Fin.ext ?_)
  obtain ⟨e00, e01, e10, e11, e20, e21, -⟩ := block_index t
  match ax with
  | ⟨0, _⟩ => show win0_2.index t (0 : Fin 2) * 128 + 1 * (y 0).val = (y 0).val; omega
  | ⟨1, _⟩ => show win0_2.index t (1 : Fin 2) * 128 + 1 * (y 1).val = (y 1).val; omega

/-- The window of v1 at point `t` shows layers `64·t … 64·t + 63` of the stack. -/
theorem iblk3_apply (c : Dev nD) (t : Fin cfg0.N) (a : Fin 64) (b l p : Fin 128) (hp : p.val = 64 * t.val + a.val) :
    (iblk m c 3 t : Vec Ideal S64x128x128 .f32) (ix3 a b l) = V m c main_v3 (ix3 p b l) := by
  unfold iblk
  rw [View.read_apply]
  show V m c main_v3 _ = V m c main_v3 _
  refine congrArg (V m c main_v3) (funext fun ax => Fin.ext ?_)
  obtain ⟨-, -, -, -, -, -, e30, e31, e32, e40, e41, e42, -⟩ := block_index t
  match ax with
  | ⟨0, _⟩ => show win0_3.index t (0 : Fin 3) * 64 + 1 * a.val = p.val; omega
  | ⟨1, _⟩ => show win0_3.index t (1 : Fin 3) * 128 + 1 * b.val = b.val; omega
  | ⟨2, _⟩ => show win0_3.index t (2 : Fin 3) * 128 + 1 * l.val = l.val; omega

/-- The window of v2 at point `t` shows layers `64·t … 64·t + 63` of the stack. -/
theorem iblk4_apply (c : Dev nD) (t : Fin cfg0.N) (a : Fin 64) (b l p : Fin 128) (hp : p.val = 64 * t.val + a.val) :
    (iblk m c 4 t : Vec Ideal S64x128x128 .f32) (ix3 a b l) = V m c main_v4 (ix3 p b l) := by
  unfold iblk
  rw [View.read_apply]
  show V m c main_v4 _ = V m c main_v4 _
  refine congrArg (V m c main_v4) (funext fun ax => Fin.ext ?_)
  obtain ⟨-, -, -, -, -, -, e30, e31, e32, e40, e41, e42, -⟩ := block_index t
  match ax with
  | ⟨0, _⟩ => show win0_4.index t (0 : Fin 3) * 64 + 1 * a.val = p.val; omega
  | ⟨1, _⟩ => show win0_4.index t (1 : Fin 3) * 128 + 1 * b.val = b.val; omega
  | ⟨2, _⟩ => show win0_4.index t (2 : Fin 3) * 128 + 1 * l.val = l.val; omega

/-- The table row that belongs to an entry of a stack. -/
abbrev sq (j : S128x128x128.Idx) : S128x128.Idx :=
  ix2 (⟨(j 0).val, (j 0).isLt⟩ : Fin 128) (⟨(j 1).val, (j 1).isLt⟩ : Fin 128)

/-- What the region's output stack holds, as a function of the tables and stacks the region finds. -/
def G5 (U D1 D2 : S128x128.Idx → EReal) (W1 W2 : S128x128x128.Idx → EReal) : S128x128x128.Idx → EReal := fun j =>
  W2 j * min (D2 (sq j)) (Cert.Spec.top U) + W1 j * min (D1 (sq j)) (Cert.Spec.top fun k => U k - D2 k)

/-- The first grid point. -/
abbrev first : Fin cfg0.N := t0_0

/-- After the first point the two scratch buffers hold the two weight tables. -/
theorem tables_first (c : Dev nD) (h : 0 < cfg0.N) :
    (outsAt0 m c 0 h).2.1 = k0_pay4 (iblk m c 0 first) (iblk m c 2 first) (iblk m c 1 first)
    ∧ (outsAt0 m c 0 h).2.2 = k0_pay3 (iblk m c 0 first) (iblk m c 2 first) := by
  have e := outsAt0_A m c first rfl
  constructor
  · refine (congrArg (fun z => z.2.1) e).trans ?_
    exact Cert.KernelIdeal.Pieces.scratch0_first (F := Ideal) c (grid0.coords first) (ms0_0 first) (hs0_0 first) (ms0_1 first) (hs0_1 first) (ms0_2 first) (hs0_2 first) (ms0_3 first) (hs0_3 first) (ms0_4 first) (hs0_4 first) (ms0_5 first) (hs0_5 first) scM0_0 (Memref.isWhole_whole _) scM0_1 (Memref.isWhole_whole _) ((hcond0_0 first).mpr rfl)
      (iblk m c 0 first) (iblk m c 1 first) (iblk m c 2 first) (iblk m c 3 first) (iblk m c 4 first)
  · refine (congrArg (fun z => z.2.2) e).trans ?_
    exact Cert.KernelIdeal.Pieces.scratch1_first (F := Ideal) c (grid0.coords first) (ms0_0 first) (hs0_0 first) (ms0_1 first) (hs0_1 first) (ms0_2 first) (hs0_2 first) (ms0_3 first) (hs0_3 first) (ms0_4 first) (hs0_4 first) (ms0_5 first) (hs0_5 first) scM0_0 (Memref.isWhole_whole _) scM0_1 (Memref.isWhole_whole _) ((hcond0_0 first).mpr rfl)
      (iblk m c 0 first) (iblk m c 1 first) (iblk m c 2 first) (iblk m c 3 first) (iblk m c 4 first)

set_option maxHeartbeats 4000000 in
/-- At either point the output block is the combining step of the point's rows of the two weight tables with the
    point's layers of v2 and v1. -/
theorem out_block (c : Dev nD) (t : Fin cfg0.N) :
    (outsAt0 m c t.val t.isLt).1
      = k0_pay5 (Cert.KernelIdeal.Pieces.rowsAt (grid0.coords t) (k0_pay3 (iblk m c 0 first) (iblk m c 2 first)))
          (Cert.KernelIdeal.Pieces.rowsAt (grid0.coords t) (k0_pay4 (iblk m c 0 first) (iblk m c 2 first) (iblk m c 1 first)))
          (iblk m c 4 t) (iblk m c 3 t) := by
  rcases fin_N0 t with rfl | rfl
  · refine (congrArg (fun z => z.1) (outsAt0_A m c t0_0 rfl)).trans ?_
    exact Cert.KernelIdeal.Pieces.out_first (F := Ideal) c (grid0.coords t0_0) (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) scM0_0 (Memref.isWhole_whole _) scM0_1 (Memref.isWhole_whole _) ((hcond0_0 t0_0).mpr rfl)
      (iblk m c 0 t0_0) (iblk m c 1 t0_0) (iblk m c 2 t0_0) (iblk m c 3 t0_0) (iblk m c 4 t0_0)
  · have h1 : ¬t0_1.val % 2 = 0 := by decide
    refine (congrArg (fun z => z.1) (outsAt0_B m c t0_1 h1)).trans ?_
    refine (Cert.KernelIdeal.Pieces.out_later (F := Ideal) c (grid0.coords t0_1) (ms0_0 t0_1) (hs0_0 t0_1) (ms0_1 t0_1) (hs0_1 t0_1) (ms0_2 t0_1) (hs0_2 t0_1) (ms0_3 t0_1) (hs0_3 t0_1) (ms0_4 t0_1) (hs0_4 t0_1) (ms0_5 t0_1) (hs0_5 t0_1) scM0_0 (Memref.isWhole_whole _) scM0_1 (Memref.isWhole_whole _) (fun h => h1 ((hcond0_0 t0_1).mp h))
      (iblk m c 0 t0_1) (iblk m c 1 t0_1) (iblk m c 2 t0_1) (iblk m c 3 t0_1) (iblk m c 4 t0_1)
      (outsAt0 m c (t0_1.val - 1) (Nat.lt_of_le_of_lt (Nat.sub_le _ _) t0_1.isLt)).2.1
      (outsAt0 m c (t0_1.val - 1) (Nat.lt_of_le_of_lt (Nat.sub_le _ _) t0_1.isLt)).2.2).trans ?_
    exact congrArg₂ (fun A B => k0_pay5 (Cert.KernelIdeal.Pieces.rowsAt (grid0.coords t0_1) A)
        (Cert.KernelIdeal.Pieces.rowsAt (grid0.coords t0_1) B) (iblk m c 4 t0_1) (iblk m c 3 t0_1))
      (tables_first m c t0_0.isLt).2 (tables_first m c t0_0.isLt).1

end Cert.KernelIdeal.Region

end
-- ==== Proof.KernelValue.lean ====
/-
  What the kernel's region leaves in its output stack, and what the whole program returns, over the extended reals.

  At (p, q, l) the output stack ends at v2(p, q, l) · min(d2(p, q), M1) + v1(p, q, l) · min(d1(p, q), M2), with M1 the
  largest entry of the table of u and M2 the largest entry of u - d2: each of the two grid points writes 64 layers of
  it, and the two blocks cover the stack. The tables and stacks are row-major re-readings of the arguments, and the
  program returns the output stack re-read as [16384, 128].
-/
import proofs.«157263_g25632364823053_cont_8to1_311_27_alg».proof.Proof.Gen.KernelIdeal.Frame
import proofs.«157263_g25632364823053_cont_8to1_311_27_alg».proof.Proof.Pieces
import proofs.«157263_g25632364823053_cont_8to1_311_27_alg».proof.Proof.Payload
import proofs.«157263_g25632364823053_cont_8to1_311_27_alg».proof.Proof.KernelBlocks
import proofs.«157263_g25632364823053_cont_8to1_311_27_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384
noncomputable section

open Idealize.ShloMosaic Idealize.ShloMosaic.TcCoe Idealize.SL.Sem

open Idealize.ShloMosaic.Pipeline (Dat)

namespace Cert.KernelIdeal.Region

open Cert.KernelIdeal Cert.KernelIdeal.Gen Idealize.ShloMosaic.ValueIdx

variable (m : (ℓ : Loc nD τ sig) → Buf (Elt Ideal) ℓ) (ρ : Dev nD → PrngReg)

/-- The tables and stacks as the region finds them, as plain functions of their entries. -/
abbrev tU (c : Dev nD) : S128x128.Idx → EReal := V m c main_v0
abbrev tD1 (c : Dev nD) : S128x128.Idx → EReal := V m c main_v1
abbrev tD2 (c : Dev nD) : S128x128.Idx → EReal := V m c main_v2
abbrev sV1 (c : Dev nD) : S128x128x128.Idx → EReal := V m c main_v3
abbrev sV2 (c : Dev nD) : S128x128x128.Idx → EReal := V m c main_v4

/-- An entry of the output block of point `t`: the entry of the output stack `64·t` layers further down. -/
theorem out_block_apply (c : Dev nD) (t : Fin cfg0.N) (a : Fin 64) (b l p : Fin 128) (hp : p.val = 64 * t.val + a.val) :
    (outsAt0 m c t.val t.isLt).1 (ix3 a b l) = G5 (tU m c) (tD1 m c) (tD2 m c) (sV1 m c) (sV2 m c) (ix3 p b l) := by
  have e2 : Cert.KernelIdeal.Pieces.rowsAt (F := Ideal) (grid0.coords t) (k0_pay3 (iblk m c 0 first) (iblk m c 2 first)) (ix2 a b)
      = min (tD2 m c (ix2 p b)) (Cert.Spec.top (tU m c)) :=
    (Cert.KernelIdeal.Payload.rowsAt_apply t _ a b p hp).trans
      ((Cert.KernelIdeal.Payload.capped_by_top (iblk m c 0 first) (iblk m c 2 first) p b).trans
        (congrArg₂ (min : EReal → EReal → EReal) (iblk2_apply m c first (ix2 p b))
          (congrArg (Cert.Spec.top (ι := S128x128.Idx)) (funext (iblk0_apply m c first)))))
  have e1 : Cert.KernelIdeal.Pieces.rowsAt (F := Ideal) (grid0.coords t)
        (k0_pay4 (iblk m c 0 first) (iblk m c 2 first) (iblk m c 1 first)) (ix2 a b)
      = min (tD1 m c (ix2 p b)) (Cert.Spec.top fun k : S128x128.Idx => tU m c k - tD2 m c k) :=
    (Cert.KernelIdeal.Payload.rowsAt_apply t _ a b p hp).trans
      ((Cert.KernelIdeal.Payload.capped_by_top_diff (iblk m c 0 first) (iblk m c 2 first) (iblk m c 1 first) p b).trans
        (congrArg₂ (min : EReal → EReal → EReal) (iblk1_apply m c first (ix2 p b))
          (congrArg (Cert.Spec.top (ι := S128x128.Idx)) (funext fun k =>
            congrArg₂ (fun x y : EReal => x - y) (iblk0_apply m c first k) (iblk2_apply m c first k)))))
  refine (congrFun (out_block m c t) (ix3 a b l)).trans ?_
  refine (Cert.KernelIdeal.Payload.combine_apply _ _ (iblk m c 4 t) (iblk m c 3 t) a b l).trans ?_
  exact congrArg₂ (fun x y : EReal => x + y) (congrArg₂ (fun x y : EReal => x * y) (iblk4_apply m c t a b l p hp) e2)
    (congrArg₂ (fun x y : EReal => x * y) (iblk3_apply m c t a b l p hp) e1)

/-- The same, for any entry of the block and the entry of the stack with the matching coordinates. -/
theorem block_entry (c : Dev nD) (t : Fin cfg0.N) (y : S64x128x128.Idx) (j : S128x128x128.Idx)
    (h0 : (j 0).val = 64 * t.val + (y 0).val) (h1 : (j 1).val = (y 1).val) (h2 : (j 2).val = (y 2).val) :
    (outsAt0 m c t.val t.isLt).1 y = G5 (tU m c) (tD1 m c) (tD2 m c) (sV1 m c) (sV2 m c) j := by
  obtain ⟨a, b, l, rfl⟩ : ∃ (a : Fin 64) (b l : Fin 128), y = ix3 a b l := ⟨y 0, y 1, y 2, eq_ix3 y⟩
  obtain ⟨p, q, r, rfl⟩ : ∃ (p q r : Fin 128), j = ix3 p q r := ⟨j 0, j 1, j 2, eq_ix3 j⟩
  obtain rfl : q = b := Fin.ext h1
  obtain rfl : r = l := Fin.ext h2
  exact out_block_apply m c t a q r p h0

/-- What point `t` writes back is block `t` of the stack `G5`. -/
theorem flushed_eq (c : Dev nD) (t : Fin cfg0.N) :
    (dats m 0 c).flushed 5 t = ((cfg0.win 5).blk t).view.read (Elt Ideal) (G5 (tU m c) (tD1 m c) (tD2 m c) (sV1 m c) (sV2 m c)) := by
  show (cfg0.win 5).cut (grid0.coords t) ((dats m 0 c).after 5 t) = _
  rw [after0_5]
  funext y
  obtain ⟨-, -, -, -, -, -, -, -, -, -, -, -, e50, e51, e52⟩ := block_index t
  show (outsAt0 m c t.val t.isLt).1 y = G5 (tU m c) (tD1 m c) (tD2 m c) (sV1 m c) (sV2 m c) (((cfg0.win 5).blk t).view.emb y)
  refine block_entry m c t y _ ?_ ?_ ?_
  · show win0_5.index t (0 : Fin 3) * 64 + 1 * (y 0).val = 64 * t.val + (y 0).val; omega
  · show win0_5.index t (1 : Fin 3) * 128 + 1 * (y 1).val = (y 1).val; omega
  · show win0_5.index t (2 : Fin 3) * 128 + 1 * (y 2).val = (y 2).val; omega

/-- The output window's blocks are never clipped: 64 layers of 128 rows of 128 entries at both points. -/
theorem out_extent : ∀ t : Fin cfg0.N, win0_5.xsize (grid0.coords t) (0 : Fin 3) = 64
    ∧ win0_5.xsize (grid0.coords t) (1 : Fin 3) = 128 ∧ win0_5.xsize (grid0.coords t) (2 : Fin 3) = 128 :=
  (by decide +kernel : ∀ t : Fin grid0.N, _)

/-- The two blocks cover the stack, so after the run the output stack is `G5`. -/
theorem final (c : Dev nD) : (dats m 0 c).arrAt 5 cfg0.N = G5 (tU m c) (tD1 m c) (tD2 m c) (sV1 m c) (sV2 m c) :=
  (dats m 0 c).arrAt_eq_of_cover 5 _ (fun t _ => flushed_eq m c t) fun i => by
    have hi0 : (i 0).val < 128 := (i 0).isLt
    have hi1 : (i 1).val < 128 := (i 1).isLt
    have hi2 : (i 2).val < 128 := (i 2).isLt
    have hN : cfg0.N = 2 := N_0
    obtain ⟨tt, htt⟩ : ∃ tt : Fin cfg0.N, tt.val = (i 0).val / 64 := ⟨⟨(i 0).val / 64, by omega⟩, rfl⟩
    refine ⟨tt, flush0_5 tt, ?_⟩
    obtain ⟨-, -, -, -, -, -, -, -, -, -, -, -, e50, e51, e52⟩ := block_index tt
    show i ∈ ((View.whole main_v5).slice (win0_5.rect tt)).set
    rw [View.set_slice_whole, Rect.mem_set_unit]
    intro a
    obtain ⟨x0, x1, x2⟩ := out_extent tt
    match a with
    | ⟨0, _⟩ =>
      show win0_5.index tt (0 : Fin 3) * 64 ≤ (i 0).val
        ∧ (i 0).val < win0_5.index tt (0 : Fin 3) * 64 + win0_5.xsize (grid0.coords tt) (0 : Fin 3)
      omega
    | ⟨1, _⟩ =>
      show win0_5.index tt (1 : Fin 3) * 128 ≤ (i 1).val
        ∧ (i 1).val < win0_5.index tt (1 : Fin 3) * 128 + win0_5.xsize (grid0.coords tt) (1 : Fin 3)
      omega
    | ⟨2, _⟩ =>
      show win0_5.index tt (2 : Fin 3) * 128 ≤ (i 2).val
        ∧ (i 2).val < win0_5.index tt (2 : Fin 3) * 128 + win0_5.xsize (grid0.coords tt) (2 : Fin 3)
      omega

/-- The table of u as the region finds it: the argument column re-read row-major as [128,128]. -/
theorem V_u (c : Dev nD) : (V m c main_v0 : S128x128.Idx → EReal)
    = shapeCast S128x128 (m ((c : Thread nD τ).loc main_arg0)) shapeCasts_S16384x1_S128x128 := by
  show StableHlo.after hostOps0 (fun b => m (c, b)) (Proc.devRef .tc main_v0) = _
  after_results
  rfl

/-- The table of d1. -/
theorem V_d1 (c : Dev nD) : (V m c main_v1 : S128x128.Idx → EReal)
    = shapeCast S128x128 (m ((c : Thread nD τ).loc main_arg1)) shapeCasts_S16384x1_S128x128 := by
  show StableHlo.after hostOps0 (fun b => m (c, b)) (Proc.devRef .tc main_v1) = _
  after_results
  rfl

/-- The table of d2. -/
theorem V_d2 (c : Dev nD) : (V m c main_v2 : S128x128.Idx → EReal)
    = shapeCast S128x128 (m ((c : Thread nD τ).loc main_arg2)) shapeCasts_S16384x1_S128x128 := by
  show StableHlo.after hostOps0 (fun b => m (c, b)) (Proc.devRef .tc main_v2) = _
  after_results
  rfl

/-- The stack of v1: the argument matrix re-read row-major as [128,128,128]. -/
theorem V_v1 (c : Dev nD) : (V m c main_v3 : S128x128x128.Idx → EReal)
    = shapeCast S128x128x128 (m ((c : Thread nD τ).loc main_arg3)) shapeCasts_S16384x128_S128x128x128 := by
  show StableHlo.after hostOps0 (fun b => m (c, b)) (Proc.devRef .tc main_v3) = _
  after_results
  rfl

/-- The stack of v2. -/
theorem V_v2 (c : Dev nD) : (V m c main_v4 : S128x128x128.Idx → EReal)
    = shapeCast S128x128x128 (m ((c : Thread nD τ).loc main_arg4)) shapeCasts_S16384x128_S128x128x128 := by
  show StableHlo.after hostOps0 (fun b => m (c, b)) (Proc.devRef .tc main_v4) = _
  after_results
  rfl

/-- The program's result: the output stack re-read row-major as [16384, 128]. -/
theorem tail_eq (c : Dev nD) :
    Pipeline.afterTail₀ cfgs (dats m) 0 (V0 m) [hostOps1] c main_v6
      = shapeCast S16384x128 (G5 (tU m c) (tD1 m c) (tD2 m c) (sV1 m c) (sV2 m c)) shapeCasts_S128x128x128_S16384x128 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v5)
      = G5 (tU m c) (tD1 m c) (tD2 m c) (sV1 m c) (sV2 m c) :=
    (Pipeline.withArrays_arr spec0 launch0.win.arr_inj c _ _ 5).trans (final m c)
  rw [e]
  rfl

/-- The run, read: the program's result is the output stack re-read as [16384, 128], and the arguments are unchanged. -/
theorem run : θ_run defs (onTc (τ := τ) (main (F := Ideal))) ⟨m, fun _ => 0, ρ⟩ fun r => ∀ c : Dev nD,
      r.2.mem ((c.tc : Thread nD τ).loc main_v6)
        = shapeCast S16384x128 (G5 (tU m c) (tD1 m c) (tD2 m c) (sV1 m c) (sV2 m c)) shapeCasts_S128x128x128_S16384x128
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Region

end
-- ==== Proof.KernelSpec.lean ====
/-
  The kernel's result is the specification of the arguments.

  The region's tables and stacks are row-major re-readings of the arguments: table entry (p, q) is column entry
  128·p + q, stack entry (p, q, l) is matrix entry (128·p + q, l), and the returned matrix entry (r, l) is the output
  stack's entry (r / 128, r % 128, l). A re-reading is a bijection of entries, so the largest entry of the table of u
  is the largest entry of the column u, and likewise for u - d2. Entry by entry the returned matrix is therefore
  v2(r, l) · min(d2(r), M1) + v1(r, l) · min(d1(r), M2).
-/
import proofs.«157263_g25632364823053_cont_8to1_311_27_alg».proof.Proof.KernelValue
import proofs.«157263_g25632364823053_cont_8to1_311_27_alg».proof.Proof.Spec
import Idealize.ShloMosaic.Lib.Pipeline.Value
import Idealize.ShloMosaic.Lib.ValueIdx

noncomputable section

open Idealize.ShloMosaic Idealize.ShloMosaic.TcCoe Idealize.SL.Sem

namespace Cert.KernelIdeal.Region

open Cert.KernelIdeal Cert.KernelIdeal.Gen Idealize.ShloMosaic.ValueIdx

variable (m : (ℓ : Loc nD τ sig) → Buf (Elt Ideal) ℓ)

/-- The five arguments, as plain functions of their entries. -/
abbrev argU (c : Dev nD) : S16384x1.Idx → EReal := m ((c : Thread nD τ).loc main_arg0)
abbrev argD1 (c : Dev nD) : S16384x1.Idx → EReal := m ((c : Thread nD τ).loc main_arg1)
abbrev argD2 (c : Dev nD) : S16384x1.Idx → EReal := m ((c : Thread nD τ).loc main_arg2)
abbrev argV1 (c : Dev nD) : S16384x128.Idx → EReal := m ((c : Thread nD τ).loc main_arg3)
abbrev argV2 (c : Dev nD) : S16384x128.Idx → EReal := m ((c : Thread nD τ).loc main_arg4)

/-- The output stack's entry (p, q, l), spelt out. -/
theorem G5_apply (U D1 D2 : S128x128.Idx → EReal) (W1 W2 : S128x128x128.Idx → EReal) (p q l : Fin 128) :
    G5 U D1 D2 W1 W2 (ix3 p q l)
      = W2 (ix3 p q l) * min (D2 (ix2 p q)) (Cert.Spec.top U)
        + W1 (ix3 p q l) * min (D1 (ix2 p q)) (Cert.Spec.top fun k => U k - D2 k) := rfl

/-- The specification's entry (r, l), spelt out. -/
theorem G_apply (u d1 d2 : S16384x1.Idx → EReal) (v1 v2 : S16384x128.Idx → EReal) (r : Fin 16384) (l : Fin 128) :
    Cert.Spec.G u d1 d2 v1 v2 (ix2 r l)
      = v2 (ix2 r l) * min (d2 (ix2 r (0 : Fin 1))) (Cert.Spec.top u)
        + v1 (ix2 r l) * min (d1 (ix2 r (0 : Fin 1))) (Cert.Spec.top fun k => u k - d2 k) := rfl

/-- A column re-read as a [128,128] table: table entry (p, q) is column entry 128·p + q. -/
theorem table_apply (x : S16384x1.Idx → EReal) (p q : Fin 128) (r : Fin 16384) (hr : r.val = 128 * p.val + q.val) :
    shapeCast S128x128 x shapeCasts_S16384x1_S128x128 (ix2 p q) = x (ix2 r (0 : Fin 1)) :=
  shapeCast_apply x _ _ _ (by
    rw [Shape.rowMajor_val_two, Shape.rowMajor_val_two]
    show r.val * 1 + 0 = p.val * 128 + q.val
    omega)

/-- A matrix re-read as a [128,128,128] stack: stack entry (p, q, l) is matrix entry (128·p + q, l). -/
theorem stack_apply (x : S16384x128.Idx → EReal) (p q l : Fin 128) (r : Fin 16384) (hr : r.val = 128 * p.val + q.val) :
    shapeCast S128x128x128 x shapeCasts_S16384x128_S128x128x128 (ix3 p q l) = x (ix2 r l) :=
  shapeCast_apply x _ _ _ (by
    rw [Shape.rowMajor_val_two, Shape.rowMajor_val_three]
    show r.val * 128 + l.val = (p.val * 128 + q.val) * 128 + l.val
    omega)

/-- A stack re-read as a matrix: matrix entry (r, l) is stack entry (r / 128, r % 128, l). -/
theorem matrix_apply (x : S128x128x128.Idx → EReal) (p q l : Fin 128) (r : Fin 16384) (hr : r.val = 128 * p.val + q.val) :
    shapeCast S16384x128 x shapeCasts_S128x128x128_S16384x128 (ix2 r l) = x (ix3 p q l) :=
  shapeCast_apply x _ _ _ (by
    rw [Shape.rowMajor_val_two, Shape.rowMajor_val_three]
    show (p.val * 128 + q.val) * 128 + l.val = r.val * 128 + l.val
    omega)

/-- The program's result is the specification of its arguments. -/
theorem kernel_is_G (c : Dev nD) :
    shapeCast S16384x128 (G5 (tU m c) (tD1 m c) (tD2 m c) (sV1 m c) (sV2 m c)) shapeCasts_S128x128x128_S16384x128
      = Cert.Spec.G (argU m c) (argD1 m c) (argD2 m c) (argV1 m c) (argV2 m c) := by
  funext i
  obtain ⟨r, l, rfl⟩ : ∃ (r : Fin 16384) (l : Fin 128), i = ix2 r l := ⟨i 0, i 1, eq_ix2 i⟩
  have hr := r.isLt
  obtain ⟨p, hp⟩ : ∃ p : Fin 128, p.val = r.val / 128 := ⟨⟨r.val / 128, by omega⟩, rfl⟩
  obtain ⟨q, hq⟩ : ∃ q : Fin 128, q.val = r.val % 128 := ⟨⟨r.val % 128, by omega⟩, rfl⟩
  have hpq : r.val = 128 * p.val + q.val := by omega
  rw [matrix_apply _ p q l r hpq]
  have hU : Cert.Spec.top (tU m c) = Cert.Spec.top (argU m c) := by
    unfold tU; rw [V_u]
    exact Cert.Spec.top_equiv (Shape.reshapeEquiv shapeCasts_S16384x1_S128x128) (argU m c)
  have hUD : Cert.Spec.top (fun k => tU m c k - tD2 m c k) = Cert.Spec.top fun k => argU m c k - argD2 m c k := by
    unfold tU tD2; rw [V_u, V_d2]
    exact Cert.Spec.top_equiv (Shape.reshapeEquiv shapeCasts_S16384x1_S128x128) (fun k => argU m c k - argD2 m c k)
  have h2 : sV2 m c (ix3 p q l) = argV2 m c (ix2 r l) := by
    unfold sV2; rw [V_v2]; exact stack_apply _ p q l r hpq
  have h1 : sV1 m c (ix3 p q l) = argV1 m c (ix2 r l) := by
    unfold sV1; rw [V_v1]; exact stack_apply _ p q l r hpq
  have hd2 : tD2 m c (ix2 p q) = argD2 m c (ix2 r (0 : Fin 1)) := by
    unfold tD2; rw [V_d2]; exact table_apply _ p q r hpq
  have hd1 : tD1 m c (ix2 p q) = argD1 m c (ix2 r (0 : Fin 1)) := by
    unfold tD1; rw [V_d1]; exact table_apply _ p q r hpq
  rw [G5_apply, G_apply, h2, h1, hd2, hd1, hU, hUD]

end Cert.KernelIdeal.Region

end
-- ==== Proof.RefSpec.lean ====
/-
  The reference program computes the specification.

  Entry by entry the reference's result is (0 + v2 · min(d2, max(u - 0))) + v1 · min(d1, max(u - (0 + d2))), the two
  maxima taken over all 16384 entries starting from minus infinity. Over the extended reals x - 0 = x and 0 + x = x
  for every x, so this is the specification's v2 · min(d2, M1) + v1 · min(d1, M2).
-/
import proofs.«157263_g25632364823053_cont_8to1_311_27_alg».proof.Proof.Gen.ReferenceIdeal.Read
import proofs.«157263_g25632364823053_cont_8to1_311_27_alg».proof.Proof.Spec
import proofs.«157263_g25632364823053_cont_8to1_311_27_alg».proof.Proof.LibMaxAll
import Idealize.ShloMosaic.Lib.ValueIdx
import Idealize.ShloMosaic.PureOps.Ideal.Laws

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx

/-- The host's maximum over every entry of a column, started from minus infinity, is the column's largest entry. -/
theorem host_max_all (x : S16384x1.Idx → EReal) (j : S_.Idx) :
    Host.reduce (FloatOps.maximumf (F := Ideal) (φ := .f32)) x (constant (F := Ideal) S_ .f32 0xFF800000#32)
      reducesTo_S16384x1_S_d0_1 h_S_ j = Cert.Spec.top x := by
  exact Cert.Lib.MaxAll.hostReduce_maximumf_all x _ reducesTo_S16384x1_S_d0_1 (fun b => b.elim0) h_S_ j

/-- The row index the reference's broadcasts read is the specification's. -/
theorem idx6_eq (i : S16384x128.Idx) : idx_main_v6 i = Cert.Spec.rowOf i :=
  funext fun a => match a with | ⟨0, _⟩ => rfl | ⟨1, _⟩ => rfl
theorem idx14_eq (i : S16384x128.Idx) : idx_main_v14 i = Cert.Spec.rowOf i :=
  funext fun a => match a with | ⟨0, _⟩ => rfl | ⟨1, _⟩ => rfl

/-- The reference's result is the specification of its arguments. -/
theorem reference_is_G (x0 x1 x2 : S16384x1.Idx → EReal) (x3 x4 : S16384x128.Idx → EReal) :
    val_main_v16 (F := Ideal) x0 x1 x2 x3 x4 = Cert.Spec.G x0 x1 x2 x3 x4 := by
  funext i
  have hM1 : val_main_v3 (F := Ideal) x0 (idx_main_v4 (Cert.Spec.rowOf i)) = Cert.Spec.top x0 := by
    unfold val_main_v3
    refine (host_max_all _ _).trans (congrArg (Cert.Spec.top (ι := S16384x1.Idx)) (funext fun k => ?_))
    rw [val_main_v2_apply, val_main_v1_apply, val_main_cst_0_apply]
    show x0 k - Ideal.ofBits .f32 0x00000000#32 = x0 k
    rw [Ideal.ofBits_zero_f32, sub_zero]
  have hM2 : val_main_v11 (F := Ideal) x0 x2 (idx_main_v12 (Cert.Spec.rowOf i)) = Cert.Spec.top fun k => x0 k - x2 k := by
    unfold val_main_v11
    refine (host_max_all _ _).trans (congrArg (Cert.Spec.top (ι := S16384x1.Idx)) (funext fun k => ?_))
    rw [val_main_v10_apply, val_main_v9_apply, val_main_v1_apply, val_main_cst_0_apply]
    show x0 k - (Ideal.ofBits .f32 0x00000000#32 + x2 k) = x0 k - x2 k
    rw [Ideal.ofBits_zero_f32, zero_add]
  rw [val_main_v16_apply, val_main_v8_apply, val_main_v15_apply, val_main_v7_apply, val_main_v0_apply, val_main_cst_apply,
    val_main_v6_apply, val_main_v14_apply, val_main_v5_apply, val_main_v13_apply, val_main_v4_apply, val_main_v12_apply,
    idx6_eq, idx14_eq, hM1, hM2]
  show (Ideal.ofBits .f32 0x00000000#32 + x4 i * min (x2 (Cert.Spec.rowOf i)) (Cert.Spec.top x0))
      + x3 i * min (x1 (Cert.Spec.rowOf i)) (Cert.Spec.top fun k => x0 k - x2 k) = _
  rw [Ideal.ofBits_zero_f32, zero_add]
  rfl

end Cert.ReferenceIdeal.RefValue

end
-- ==== Proof.lean ====
/-
  The kernel and its reference compute the same matrix over the extended reals.

  Inputs: columns u, d1, d2 of 16384 entries and matrices v1, v2 of 16384 rows and 128 columns. With M1 the largest
  entry of u and M2 the largest entry of u - d2, both programs return, at row r and column l,

      v2(r, l) · min(d2(r), M1) + v1(r, l) · min(d1(r), M2).

  The kernel re-reads the columns as [128,128] tables and the matrices as [128,128,128] stacks, computes the two
  capped weight tables once at its first grid point, keeps them in scratch memory, and at each of its two grid points
  combines 64 rows of them with 64 layers of the stacks; the two output blocks cover the output stack, which is
  returned re-read as a matrix. A re-reading is a bijection of entries and so does not change a largest entry. The
  reference computes (0 + v2 · min(d2, max(u - 0))) + v1 · min(d1, max(u - (0 + d2))), and x - 0 = x, 0 + x = x hold
  for every extended real. No entry has to be finite for any of this, so the precondition is never opened.

  The three frame claims are the generated frames (the reference's frame is its generated run with the result
  dropped); the idealization rewrote nothing, so `preserves` is trivial.
-/
import proofs.«157263_g25632364823053_cont_8to1_311_27_alg».proof.Defs
import proofs.«157263_g25632364823053_cont_8to1_311_27_alg».proof.Proof.Gen.Kernel
import proofs.«157263_g25632364823053_cont_8to1_311_27_alg».proof.Proof.Gen.Kernel.Skeleton
import proofs.«157263_g25632364823053_cont_8to1_311_27_alg».proof.Proof.Gen.Kernel.Launch
import proofs.«157263_g25632364823053_cont_8to1_311_27_alg».proof.Proof.Gen.Kernel.Points
import proofs.«157263_g25632364823053_cont_8to1_311_27_alg».proof.Proof.Gen.Kernel.Frame
import proofs.«157263_g25632364823053_cont_8to1_311_27_alg».proof.Proof.Gen.KernelIdeal
import proofs.«157263_g25632364823053_cont_8to1_311_27_alg».proof.Proof.Gen.KernelIdeal.Skeleton
import proofs.«157263_g25632364823053_cont_8to1_311_27_alg».proof.Proof.Gen.KernelIdeal.Launch
import proofs.«157263_g25632364823053_cont_8to1_311_27_alg».proof.Proof.Gen.KernelIdeal.Points
import proofs.«157263_g25632364823053_cont_8to1_311_27_alg».proof.Proof.Gen.KernelIdeal.Frame
import proofs.«157263_g25632364823053_cont_8to1_311_27_alg».proof.Proof.Gen.ReferenceIdeal
import proofs.«157263_g25632364823053_cont_8to1_311_27_alg».proof.Proof.Gen.Pre_finite_inputs
import proofs.«157263_g25632364823053_cont_8to1_311_27_alg».proof.Proof.Gen.ReferenceIdeal.Run
import proofs.«157263_g25632364823053_cont_8to1_311_27_alg».proof.Proof.Gen.ReferenceIdeal.Read
import proofs.«157263_g25632364823053_cont_8to1_311_27_alg».proof.Proof.Spec
import proofs.«157263_g25632364823053_cont_8to1_311_27_alg».proof.Proof.KernelValue
import proofs.«157263_g25632364823053_cont_8to1_311_27_alg».proof.Proof.KernelSpec
import proofs.«157263_g25632364823053_cont_8to1_311_27_alg».proof.Proof.RefSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification of arguments that agree. -/
theorem algebraic : Cert.algebraic_KernelIdeal_ReferenceIdeal := by
  intro m ρ m' ρ' _ hagree
  refine ⟨fun c => Cert.Spec.G (Cert.KernelIdeal.Region.argU m c) (Cert.KernelIdeal.Region.argD1 m c)
    (Cert.KernelIdeal.Region.argD2 m c) (Cert.KernelIdeal.Region.argV1 m c) (Cert.KernelIdeal.Region.argV2 m c), ?_, ?_⟩
  · exact (θ_run Cert.KernelIdeal.defs _ _).mono
      (fun _ h c => ⟨(h c).1.trans (Cert.KernelIdeal.Region.kernel_is_G m c), (h c).2⟩)
      (Cert.KernelIdeal.Region.run m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v16_eq, Cert.ReferenceIdeal.RefValue.reference_is_G,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
